-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S2048x2048 : Shape := ⟨2, ![2048, 2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2x4096x2048 .f32) (main_arg1 : FVec F S2048x2048 .f32) (main_arg2 : FVec F S2048x2048 .f32) (main_arg3 : FVec F S2048x2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2x4096x2048 : Shape := ⟨3, ![2, 4096, 2048]⟩
abbrev S2048x2048 : Shape := ⟨2, ![2048, 2048]⟩
abbrev S8192x2048 : Shape := ⟨2, ![8192, 2048]⟩
abbrev S2048x6144 : Shape := ⟨2, ![2048, 6144]⟩
abbrev S8192x6144 : Shape := ⟨2, ![8192, 6144]⟩
abbrev S512x2048 : Shape := ⟨2, ![512, 2048]⟩
abbrev S2x4096x6144 : Shape := ⟨3, ![2, 4096, 6144]⟩
abbrev S2x4096x16x128 : Shape := ⟨4, ![2, 4096, 16, 128]⟩
abbrev S2x16x4096x128 : Shape := ⟨4, ![2, 16, 4096, 128]⟩

abbrev nBuf : Space → Nat
  | .hbm => 22
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x6144, .f32⟩
  | .hbm, ⟨10, _⟩ => ⟨S2048x6144, .bf16⟩
  | .hbm, ⟨11, _⟩ => ⟨S8192x6144, .f32⟩
  | .hbm, ⟨12, _⟩ => ⟨S2x4096x6144, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x16x128, .f32⟩
  | .hbm, ⟨17, _⟩ => ⟨S2x16x4096x128, .f32⟩
  | .hbm, ⟨18, _⟩ => ⟨S2x4096x16x128, .f32⟩
  | .hbm, ⟨19, _⟩ => ⟨S2x16x4096x128, .f32⟩
  | .hbm, ⟨20, _⟩ => ⟨S2x4096x16x128, .f32⟩
  | .hbm, ⟨21, _⟩ => ⟨S2x16x4096x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x4096x2048_S8192x2048 : S2x4096x2048.ShapeCasts S8192x2048
  bitsLt_bf16_f32 : FTy.bits .bf16 < FTy.bits .f32
  transposes_S2048x2048_S2048x2048_1_0 : S2048x2048.Transposes [1, 0] S2048x2048
  concatenates_S2048x2048_S2048x2048_S2048x2048_S2048x6144_d1 : Shape.Concatenates [S2048x2048, S2048x2048, S2048x2048] S2048x6144 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S8192x6144_S2x4096x6144 : S8192x6144.ShapeCasts S2x4096x6144
  slices_S2x4096x6144_S2x4096x2048_0_0_0 : S2x4096x6144.Slices ![0, 0, 0] S2x4096x2048
  slices_S2x4096x6144_S2x4096x2048_0_0_2048 : S2x4096x6144.Slices ![0, 0, 2048] S2x4096x2048
  slices_S2x4096x6144_S2x4096x2048_0_0_4096 : S2x4096x6144.Slices ![0, 0, 4096] S2x4096x2048
  shapeCasts_S2x4096x2048_S2x4096x16x128 : S2x4096x2048.ShapeCasts S2x4096x16x128
  transposes_S2x4096x16x128_S2x16x4096x128_0_2_1_3 : S2x4096x16x128.Transposes [0, 2, 1, 3] S2x16x4096x128
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x6144.size a
  hwx0_1 : ∀ i : grid0.Coords, EltTy.bits .bf16 = 32 ∨ (Rect.block (s := S2048x6144) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x6144.size a
  hwx0_2 : ∀ i : grid0.Coords, EltTy.bits .f32 = 32 ∨ (Rect.block (s := S8192x6144) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S2048x2048 : Shape := ⟨2, ![2048, 2048]⟩
abbrev S2x4096x16x128 : Shape := ⟨4, ![2, 4096, 16, 128]⟩
abbrev S2x16x4096x128 : Shape := ⟨4, ![2, 16, 4096, 128]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2x4096x2048, .f32⟩
  | .hbm, ⟨5, _⟩ => ⟨S2x4096x16x128, .f32⟩
  | .hbm, ⟨6, _⟩ => ⟨S2x16x4096x128, .f32⟩
  | .hbm, ⟨7, _⟩ => ⟨S2x4096x2048, .f32⟩
  | .hbm, ⟨8, _⟩ => ⟨S2x4096x16x128, .f32⟩
  | .hbm, ⟨9, _⟩ => ⟨S2x16x4096x128, .f32⟩
  | .hbm, ⟨10, _⟩ => ⟨S2x4096x2048, .f32⟩
  | .hbm, ⟨11, _⟩ => ⟨S2x4096x16x128, .f32⟩
  | .hbm, ⟨12, _⟩ => ⟨S2x16x4096x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S2x4096x2048_S2x4096x16x128 : S2x4096x2048.ShapeCasts S2x4096x16x128
  transposes_S2x4096x16x128_S2x16x4096x128_0_2_1_3 : S2x4096x16x128.Transposes [0, 2, 1, 3] S2x16x4096x128
  dot_S2x4096x2048_S2048x2048_S2x4096x2048_2_1_01_0_n_n_wf : DotDims.WF S2x4096x2048 S2048x2048 S2x4096x2048 [2] [1] [0, 1] [0] [] []

variable [Facts₀]

def dot_S2x4096x2048_S2048x2048_S2x4096x2048_2_1_01_0_n_n : DotDims S2x4096x2048 S2048x2048 S2x4096x2048 where
  lhsContracting := [2]
  rhsContracting := [1]
  lhsNonContracting := [0, 1]
  rhsNonContracting := [0]
  lhsBatch := []
  rhsBatch := []
  wf := dot_S2x4096x2048_S2048x2048_S2x4096x2048_2_1_01_0_n_n_wf

class Facts : Prop extends Facts₀ where

variable [Facts]
-- ==== Proof.FrameK.lean ====
/-
  The frame of the program `Kernel`: its @main is seven host operations (a reshape and a change of float format of the
  activations; three transposes, their concatenation along the columns and a change of format of the weights), one
  pipelined matrix-product region on a 3 x 16 grid, and ten host operations (a reshape, three column slices, and a
  reshape and transpose of each slice). At grid point (j, i) the body reads the 512 x 2048 block i of the activations and
  the 2048 x 2048 column block j of the weights, and stores their product, whole, into the 512 x 2048 block (i, j) of the
  result. Stated here, for every float instance: what the region finds in each array (the host operations before it
  folded over the launch memory), what the body leaves in the result's staging buffer at a point (the one store's
  payload over the two blocks), the body's Hoare triple, the proof data of the pipeline, the body obligation at a
  generic point, the run of @main (every weakly fair execution terminates, faults nowhere, and ends with the result
  array at the blocks written back and every other buffer as the later host operations leave it), and from it that
  the four argument arrays end as they were launched: no host operation writes them and no window stages them.
-/
import proofs.«161941_j13932873908401_1_alg».proof.Proof.Gen.Kernel.Launch
import proofs.«161941_j13932873908401_1_alg».proof.Proof.Gen.Kernel.Skeleton
import proofs.«161941_j13932873908401_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the seven host operations before it, folded over the
    launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result buffer, which is none of the three. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.unary_writes, StableHlo.reshape_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No host operation after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' staging buffer holds the point's column block at every point, fetched there or not: where it is not
    fetched the block index has not moved and the body left the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run of @main to the pipeline's post: none of the four arguments is an array of the pipeline, so each ends as
    the later host operations leave it, which is as the earlier ones left it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

/-! ## The body's accesses -/

abbrev r0_0 : Rect S512x2048 := Rect.unit (s := S512x2048) ![0, 0] S512x2048.size inb_S512x2048_S512x2048_0_0
abbrev r0_1 : Rect S2048x2048 := Rect.unit (s := S2048x2048) ![0, 0] S2048x2048.size inb_S2048x2048_S2048x2048_0_0

/-! ## What the body leaves in the result's staging buffer -/

/-- The result's staging buffer after the body, from the two input blocks: its one store, of the product's payload,
    over the whole buffer. -/
def out0_2 (x0 : Vec F S512x2048 .bf16) (x1 : Vec F S2048x2048 .bf16) : Vec F S512x2048 .f32 :=
  View.canon [⟨r0_0, k0_pay1 (View.ld x0 r0_0) (View.ld x1 r0_1)⟩]

/-- The one store covers the buffer. -/
theorem cover0_2 (p0 : Vec F S512x2048 .f32) (y : S512x2048.Idx) :
    ∃ pc ∈ ([⟨r0_0, p0⟩] : List (View.Piece (Elt F) S512x2048 .f32)), y ∈ pc.1.set :=
  View.cover_of_tiled [⟨r0_0, p0⟩] S512x2048.size (by rfl) y

/-! ## The body's triple -/

set_option maxHeartbeats 1000000 in
/-- The body on whole staging buffers, the inputs' at contents `x0`, `x1` and the result's at anything, runs to the
    continuation with the inputs' as they were and the result's at `out0_2 x0 x1`. -/
theorem sound_kernel (c : Dev nD) (E : Set ℕ) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole)
    (x0 : Vec F S512x2048 .bf16) (x1 : Vec F S2048x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the result's at `out0_2` of the two blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, and every
    final state has each array of the pipeline at what the proof data's blocks give and every other unscoped buffer as
    the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The four argument arrays end as launched, for every float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.FrameKI.lean ====
/-
  The frame of the program `KernelIdeal`: its @main is seven host operations (a reshape and a change of float format of the
  activations; three transposes, their concatenation along the columns and a change of format of the weights), one
  pipelined matrix-product region on a 3 x 16 grid, and ten host operations (a reshape, three column slices, and a
  reshape and transpose of each slice). At grid point (j, i) the body reads the 512 x 2048 block i of the activations and
  the 2048 x 2048 column block j of the weights, and stores their product, whole, into the 512 x 2048 block (i, j) of the
  result. Stated here, for every float instance: what the region finds in each array (the host operations before it
  folded over the launch memory), what the body leaves in the result's staging buffer at a point (the one store's
  payload over the two blocks), the body's Hoare triple, the proof data of the pipeline, the body obligation at a
  generic point, the run of @main (every weakly fair execution terminates, faults nowhere, and ends with the result
  array at the blocks written back and every other buffer as the later host operations leave it), and from it that
  the four argument arrays end as they were launched: no host operation writes them and no window stages them.
-/
import proofs.«161941_j13932873908401_1_alg».proof.Proof.Gen.KernelIdeal.Launch
import proofs.«161941_j13932873908401_1_alg».proof.Proof.Gen.KernelIdeal.Skeleton
import proofs.«161941_j13932873908401_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the seven host operations before it, folded over the
    launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own result buffer, which is none of the three. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.unary_writes, StableHlo.reshape_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No host operation after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' staging buffer holds the point's column block at every point, fetched there or not: where it is not
    fetched the block index has not moved and the body left the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run of @main to the pipeline's post: none of the four arguments is an array of the pipeline, so each ends as
    the later host operations leave it, which is as the earlier ones left it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

/-! ## The body's accesses -/

abbrev r0_0 : Rect S512x2048 := Rect.unit (s := S512x2048) ![0, 0] S512x2048.size inb_S512x2048_S512x2048_0_0
abbrev r0_1 : Rect S2048x2048 := Rect.unit (s := S2048x2048) ![0, 0] S2048x2048.size inb_S2048x2048_S2048x2048_0_0

/-! ## What the body leaves in the result's staging buffer -/

/-- The result's staging buffer after the body, from the two input blocks: its one store, of the product's payload,
    over the whole buffer. -/
def out0_2 (x0 : Vec F S512x2048 .bf16) (x1 : Vec F S2048x2048 .bf16) : Vec F S512x2048 .f32 :=
  View.canon [⟨r0_0, k0_pay1 (View.ld x0 r0_0) (View.ld x1 r0_1)⟩]

/-- The one store covers the buffer. -/
theorem cover0_2 (p0 : Vec F S512x2048 .f32) (y : S512x2048.Idx) :
    ∃ pc ∈ ([⟨r0_0, p0⟩] : List (View.Piece (Elt F) S512x2048 .f32)), y ∈ pc.1.set :=
  View.cover_of_tiled [⟨r0_0, p0⟩] S512x2048.size (by rfl) y

/-! ## The body's triple -/

set_option maxHeartbeats 1000000 in
/-- The body on whole staging buffers, the inputs' at contents `x0`, `x1` and the result's at anything, runs to the
    continuation with the inputs' as they were and the result's at `out0_2 x0 x1`. -/
theorem sound_kernel (c : Dev nD) (E : Set ℕ) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole)
    (x0 : Vec F S512x2048 .bf16) (x1 : Vec F S2048x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the result's at `out0_2` of the two blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, and every
    final state has each array of the pipeline at what the proof data's blocks give and every other unscoped buffer as
    the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The four argument arrays end as launched, for every float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.LibNary3.lean ====
/-
  A host operation over a literal family of THREE operand arrays (a concatenation of three pieces).

  Its result is its function applied to the family of the operands' contents; stated with each operand's contents at
  its own array — the family spelt out entry by entry — the contents can be rewritten further one array at a time,
  which the form under a binder over the family's index does not allow.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type} {x a b y : Ref sig .tc}

/-- The result of an operation over the literal family `![x, a, b]`, each operand's contents at its own array. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for rewriting by simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

/-- What one array holds after a line of host operations, in one simplification pass, with extra rewriting lemmas for
    operations the pass has no rule of its own for (a concatenation of three pieces, stated at its literal arrays). -/
macro "after_results_with" "[" ts:Lean.Parser.Tactic.simpLemma,* "]" : tactic =>
  `(tactic| (simp (disch := decide) only [$ts,*, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same computation by rewriting, one step at a time, for the few steps the simplification pass cannot reach (the
    contents of a piece inside a joined array). -/
macro "after_results_rw" : tactic =>
  `(tactic| (repeat (first
      | rw [Idealize.ShloMosaic.StableHlo.nullary_result] | rw [Idealize.ShloMosaic.StableHlo.unary_result] | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))

end
-- ==== Proof.ValueKI.lean ====
/-
  What the idealized kernel program computes, at the ideal instance (floats are extended reals, every operation exact,
  a change of float format the identity).

  The region's result array is one function of its two operand arrays: entry (r, n) is the sum over k of the left
  operand's entry (r, k) times the right operand's entry (k, n) (`prod`). Grid point t stores the product of the left
  operand's row block and the right operand's column block into the result's block (row block, column block); the
  matrix unit's product into a zero accumulator is that sum (`pay_apply`); a block's entry (p, q) sits at array index
  (block row x 512 + p, block column x 2048 + q) (`flushed_eq`); and the 16 x 3 blocks tile the array (`cover`), so
  the array ends at `prod` of the operands (`final7`). The operands are, as the host operations before the region
  leave them, the activations regrouped as [8192, 2048] and the three weight matrices transposed and joined along
  the columns (`V_main_v1`, `V_main_v6`); the three results are the three column thirds of the product, each regrouped
  into heads (`tail_v13`, `tail_v15`, `tail_v17`). `run` states the program's run with these equations.
-/
import proofs.«161941_j13932873908401_1_alg».proof.Proof.FrameKI
import proofs.«161941_j13932873908401_1_alg».proof.Proof.LibNary3
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Value

open Cert.KernelIdeal Cert.KernelIdeal.Gen Cert.KernelIdeal.Frame Idealize.ShloMosaic Idealize.ShloMosaic.TcCoe Idealize.SL.Sem
open Idealize.ShloMosaic.ValueIdx
open Idealize.ShloMosaic.Pipeline (Dat)

/-! ## The body's payload at an index -/

/-- The product's row coordinate is the result's row coordinate, -/
theorem lhs_row (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- its column coordinate the contracted index; -/
theorem lhs_col (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
/-- the right factor's row coordinate is the contracted index, -/
theorem rhs_row (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
/-- its column coordinate the result's column coordinate. -/
theorem rhs_col (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- THE BODY'S PAYLOAD AT AN INDEX, at the ideal instance: the matrix unit's product of the two blocks into a zero
    accumulator is, at row `p` and column `q`, the sum over `k` of the left block's entry `(p, k)` times the right
    block's entry `(k, q)`. -/
theorem pay_apply (x0 : Vec Ideal S512x2048 .bf16) (x1 : Vec Ideal S2048x2048 .bf16) (p : Fin 512) (q : Fin 2048) :
    k0_pay1 (F := Ideal) x0 x1 (ix2 p q) = ∑ k : Fin 2048, x0 (ix2 p k) * x1 (ix2 k q) := by
  unfold k0_pay1
  simp only [shapeCast_self]
  refine (Ideal.matmul_constant_zero_apply (φ₁ := .bf16) (φ₂ := .bf16) dot_S512x2048_S2048x2048_S512x2048_1_0_0_1_n_n none x0 x1 (ix2 p q)).trans ?_
  rw [← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q) ((contrEquiv1 dot_S512x2048_S2048x2048_S512x2048_1_0_0_1_n_n 2048 rfl rfl).symm k) = ix2 p k := funext fun a => Fin.ext (by
    match a with
    | ⟨0, _⟩ => exact lhs_row _ _
    | ⟨1, _⟩ => exact (lhs_col _ _).trans hk)
  have er : dot_S512x2048_S2048x2048_S512x2048_1_0_0_1_n_n.rhsIdx (ix2 p q) ((contrEquiv1 dot_S512x2048_S2048x2048_S512x2048_1_0_0_1_n_n 2048 rfl rfl).symm k) = ix2 k q := funext fun a => Fin.ext (by
    match a with
    | ⟨0, _⟩ => exact (rhs_row _ _).trans hk
    | ⟨1, _⟩ => exact rhs_col _ _)
  rw [el, er]

/-! ## From blocks to the array -/

variable (m : (ℓ : Loc nD τ sig) → Buf (Elt Ideal) ℓ) (ρ : Dev nD → PrngReg)

theorem hz : (![0, 0] : Fin 2 → Nat) = fun _ => 0 := funext fun a => by fin_cases a <;> rfl

/-- THE REGION'S RESULT as one function of the two operand arrays: entry (r, n) is the sum over k of the left operand's
    entry (r, k) times the right operand's entry (k, n). -/
def prod (X : S8192x2048.Idx → EReal) (W : S2048x6144.Idx → EReal) : S8192x6144.Idx → EReal :=
  fun i => ∑ k : Fin 2048, X (ix2 (⟨(i 0).val, (i 0).isLt⟩ : Fin 8192) k) * W (ix2 k (⟨(i 1).val, (i 1).isLt⟩ : Fin 6144))

/-- The index maps, decided over the 48 grid points: the left operand's block moves with the result's rows and stays at
    column block 0; the right operand's block stays at row block 0 and moves with the result's columns; the result's
    block indices stay below 16 and 3. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 15 ∧ win0_2.index t (1 : Fin 2) ≤ 2 :=
  (by decide +kernel : ∀ t : Fin grid0.N, _)

/-- Every block of the result is some grid point's. -/
theorem idx_onto : ∀ (q0 : Fin 16) (q1 : Fin 3), ∃ t : Fin cfg0.N, win0_2.index t = ![q0.val, q1.val] :=
  (by decide +kernel : ∀ (q0 : Fin 16) (q1 : Fin 3), ∃ t : Fin grid0.N, win0_2.index t = ![q0.val, q1.val])

/-- WHAT POINT `t` WRITES BACK is block `t` of the product of the two operand arrays as the region finds them: row `p`
    of the left block is row (block row) x 512 + p of the left operand, column `q` of the right block is column
    (block column) x 2048 + q of the right operand, and the contracted index runs over all 2048 in both. -/
theorem flushed_eq (c : Dev nD) (t : Fin cfg0.N) :
    (dats m 0 c).flushed 2 t = ((cfg0.win 2).blk t).view.read (Elt Ideal) (prod (V m c main_v1) (V m c main_v6)) := by
  show (cfg0.win 2).cut (grid0.coords t) ((dats m 0 c).after 2 t) = _
  rw [after0_2]
  unfold out0_2
  rw [View.canon_unit_zero hz]
  simp only [View.ld_unit_zero (S := S512x2048) hz, View.ld_unit_zero (S := S2048x2048) hz]
  obtain ⟨e0, e1, e2, e3, e4, e5⟩ := idx_facts t
  funext j
  obtain ⟨p, q, rfl⟩ : ∃ (p : Fin 512) (q : Fin 2048), j = ix2 p q := ⟨j 0, j 1, eq_ix2 j⟩
  show k0_pay1 (iblk m c 0 t) (iblk m c 1 t) (ix2 p q) = prod (V m c main_v1) (V m c main_v6) (((cfg0.win 2).blk t).view.emb (ix2 p q))
  refine (pay_apply (iblk m c 0 t) (iblk m c 1 t) p q).trans ?_
  unfold prod
  refine Finset.sum_congr rfl fun k _ => ?_
  have h0 : ((cfg0.win 0).blk t).view.emb (ix2 p k) = ix2 (⟨((((cfg0.win 2).blk t).view.emb (ix2 p q)) 0).val, ((((cfg0.win 2).blk t).view.emb (ix2 p q)) 0).isLt⟩ : Fin 8192) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 2048 + 1 * k.val = k.val; omega
  have h1 : ((cfg0.win 1).blk t).view.emb (ix2 k q) = ix2 k (⟨((((cfg0.win 2).blk t).view.emb (ix2 p q)) 1).val, ((((cfg0.win 2).blk t).view.emb (ix2 p q)) 1).isLt⟩ : Fin 6144) := by
    funext a; apply Fin.ext
    match a with
    | ⟨0, _⟩ => show win0_1.index t (0 : Fin 2) * 2048 + 1 * k.val = k.val; omega
    | ⟨1, _⟩ => show win0_1.index t (1 : Fin 2) * 2048 + 1 * q.val = win0_2.index t (1 : Fin 2) * 2048 + 1 * q.val; omega
  have hx : iblk m c 0 t (ix2 p k) = V m c main_v1 (ix2 (⟨((((cfg0.win 2).blk t).view.emb (ix2 p q)) 0).val, ((((cfg0.win 2).blk t).view.emb (ix2 p q)) 0).isLt⟩ : Fin 8192) k) := by
    show V m c main_v1 (((cfg0.win 0).blk t).view.emb (ix2 p k)) = _
    rw [h0]
  have hw : iblk m c 1 t (ix2 k q) = V m c main_v6 (ix2 k (⟨((((cfg0.win 2).blk t).view.emb (ix2 p q)) 1).val, ((((cfg0.win 2).blk t).view.emb (ix2 p q)) 1).isLt⟩ : Fin 6144)) := by
    show V m c main_v6 (((cfg0.win 1).blk t).view.emb (ix2 k q)) = _
    rw [h1]
  rw [hx, hw]

/-- An index of the result array is in point `t`'s block iff each coordinate is in the block's range on its axis. -/
theorem mem_blk (t : Fin cfg0.N) (i : S8192x6144.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v7).slice (win0_2.rect t)).set ↔ _
  rw [View.set_slice_whole, Rect.mem_set_unit]
  exact Iff.rfl

/-- The 16 x 3 blocks tile the result array: index (r, n) is in the block of the point whose block row is r / 512 and
    block column n / 2048. -/
theorem cover (i : S8192x6144.Idx) : ∃ t : Fin cfg0.N, (cfg0.win 2).flush t = true ∧ i ∈ ((cfg0.win 2).blk t).view.set := by
  have hi0 : (i 0).val < 8192 := (i 0).isLt
  have hi1 : (i 1).val < 6144 := (i 1).isLt
  obtain ⟨t, ht⟩ := idx_onto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- THE RESULT ARRAY after the region is the product of the two operand arrays as the region finds them. -/
theorem final7 (c : Dev nD) : (dats m 0 c).arrAt 2 cfg0.N = prod (V m c main_v1) (V m c main_v6) :=
  (dats m 0 c).arrAt_eq_of_cover 2 _ (fun t _ => flushed_eq m c t) (cover)

/-! ## The operands, as the host operations before the region leave them -/

/-- The left operand: the activations regrouped as [8192, 2048] (the change of float format is the identity). -/
abbrev lhsOp (a0 : FVec Ideal S2x4096x2048 .f32) : FVec Ideal S8192x2048 .bf16 :=
  truncf (F := Ideal) .bf16 (shapeCast S8192x2048 a0 shapeCasts_S2x4096x2048_S8192x2048) bitsLt_bf16_f32

/-- The right operand: the three weight matrices transposed and joined along the columns. -/
abbrev rhsOp (a1 a2 a3 : FVec Ideal S2048x2048 .f32) : FVec Ideal S2048x6144 .bf16 :=
  truncf (F := Ideal) .bf16 (concatenate S2048x6144 1
      [⟨S2048x2048, transpose S2048x2048 [1, 0] a1 transposes_S2048x2048_S2048x2048_1_0⟩,
       ⟨S2048x2048, transpose S2048x2048 [1, 0] a2 transposes_S2048x2048_S2048x2048_1_0⟩,
       ⟨S2048x2048, transpose S2048x2048 [1, 0] a3 transposes_S2048x2048_S2048x2048_1_0⟩]
      concatenates_S2048x2048_S2048x2048_S2048x2048_S2048x6144_d1) bitsLt_bf16_f32

theorem V_main_v1 (c : Dev nD) :
    @Eq (FVec Ideal S8192x2048 .bf16) (V m c main_v1) (lhsOp (m ((c : Thread nD τ).loc main_arg0))) := by
  show StableHlo.after hostOps0 (fun b => m (c, b)) (Proc.devRef .tc main_v1) = _
  after_results
  rfl

theorem V_main_v6 (c : Dev nD) :
    @Eq (FVec Ideal S2048x6144 .bf16) (V m c main_v6)
      (rhsOp (m ((c : Thread nD τ).loc main_arg1)) (m ((c : Thread nD τ).loc main_arg2)) (m ((c : Thread nD τ).loc main_arg3))) := by
  show StableHlo.after hostOps0 (fun b => m (c, b)) (Proc.devRef .tc main_v6) = _
  after_results_with [Cert.LibNary3.nary3_result']
  rfl

/-! ## The results, as the host operations after the region leave them -/

/-- A [2, 4096, 2048] array regrouped into 16 heads of 128 and its two middle axes exchanged: [2, 16, 4096, 128]. -/
def heads (y : FVec Ideal S2x4096x2048 .f32) : FVec Ideal S2x16x4096x128 .f32 :=
  transpose S2x16x4096x128 [0, 2, 1, 3] (shapeCast S2x4096x16x128 y shapeCasts_S2x4096x2048_S2x4096x16x128) transposes_S2x4096x16x128_S2x16x4096x128_0_2_1_3

/-- The first result after the host operations that follow the region: the columns 0–2047 of the region's result,
    regrouped as [2, 4096, 16, 128] and with its two middle axes exchanged. -/
theorem tail_v13 (c : Dev nD) :
    Pipeline.afterTail₀ cfgs (dats m) 0 (V0 m) [hostOps1] c main_v13
      = heads (extractStridedSlice S2x4096x2048 ![0, 0, 0]
          (shapeCast S2x4096x6144 ((dats m 0 c).arrAt 2 cfg0.N) shapeCasts_S8192x6144_S2x4096x6144) slices_S2x4096x6144_S2x4096x2048_0_0_0) := by
  unfold Pipeline.afterTail₀
  show StableHlo.after hostOps1 _ (Proc.devRef .tc main_v13) = _
  after_results
  rw [Pipeline.withArrays_arr spec0 launch0.win.arr_inj c _ _ 2]
  rfl

/-- The second result after the host operations that follow the region: the columns 2048–4095 of the region's result,
    regrouped as [2, 4096, 16, 128] and with its two middle axes exchanged. -/
theorem tail_v15 (c : Dev nD) :
    Pipeline.afterTail₀ cfgs (dats m) 0 (V0 m) [hostOps1] c main_v15
      = heads (extractStridedSlice S2x4096x2048 ![0, 0, 2048]
          (shapeCast S2x4096x6144 ((dats m 0 c).arrAt 2 cfg0.N) shapeCasts_S8192x6144_S2x4096x6144) slices_S2x4096x6144_S2x4096x2048_0_0_2048) := by
  unfold Pipeline.afterTail₀
  show StableHlo.after hostOps1 _ (Proc.devRef .tc main_v15) = _
  after_results
  rw [Pipeline.withArrays_arr spec0 launch0.win.arr_inj c _ _ 2]
  rfl

/-- The third result after the host operations that follow the region: the columns 4096–6143 of the region's result,
    regrouped as [2, 4096, 16, 128] and with its two middle axes exchanged. -/
theorem tail_v17 (c : Dev nD) :
    Pipeline.afterTail₀ cfgs (dats m) 0 (V0 m) [hostOps1] c main_v17
      = heads (extractStridedSlice S2x4096x2048 ![0, 0, 4096]
          (shapeCast S2x4096x6144 ((dats m 0 c).arrAt 2 cfg0.N) shapeCasts_S8192x6144_S2x4096x6144) slices_S2x4096x6144_S2x4096x2048_0_0_4096) := by
  unfold Pipeline.afterTail₀
  show StableHlo.after hostOps1 _ (Proc.devRef .tc main_v17) = _
  after_results
  rw [Pipeline.withArrays_arr spec0 launch0.win.arr_inj c _ _ 2]
  rfl

/-! ## The run -/

/-- The region's result as a function of the four argument arrays. -/
def product (a0 : FVec Ideal S2x4096x2048 .f32) (a1 a2 a3 : FVec Ideal S2048x2048 .f32) : FVec Ideal S8192x6144 .f32 :=
  prod (lhsOp a0) (rhsOp a1 a2 a3)

theorem arr7 (c : Dev nD) : (dats m 0 c).arrAt 2 cfg0.N
    = product (m ((c : Thread nD τ).loc main_arg0)) (m ((c : Thread nD τ).loc main_arg1)) (m ((c : Thread nD τ).loc main_arg2)) (m ((c : Thread nD τ).loc main_arg3)) := by
  rw [final7, V_main_v1, V_main_v6]
  rfl

/-- Every weakly fair execution of the idealized kernel program terminates with the three results at the three
    column thirds of the product, regrouped into heads, and the four arguments as launched. -/
theorem run : θ_run defs (onTc (τ := τ) (main (F := Ideal))) ⟨m, fun _ => 0, ρ⟩ fun r => ∀ c : Dev nD,
      r.2.mem ((c.tc : Thread nD τ).loc main_v13) = heads (extractStridedSlice S2x4096x2048 ![0, 0, 0]
          (shapeCast S2x4096x6144 (product (m ((c : Thread nD τ).loc main_arg0)) (m ((c : Thread nD τ).loc main_arg1)) (m ((c : Thread nD τ).loc main_arg2)) (m ((c : Thread nD τ).loc main_arg3))) shapeCasts_S8192x6144_S2x4096x6144) slices_S2x4096x6144_S2x4096x2048_0_0_0)
      ∧ r.2.mem ((c.tc : Thread nD τ).loc main_v15) = heads (extractStridedSlice S2x4096x2048 ![0, 0, 2048]
          (shapeCast S2x4096x6144 (product (m ((c : Thread nD τ).loc main_arg0)) (m ((c : Thread nD τ).loc main_arg1)) (m ((c : Thread nD τ).loc main_arg2)) (m ((c : Thread nD τ).loc main_arg3))) shapeCasts_S8192x6144_S2x4096x6144) slices_S2x4096x6144_S2x4096x2048_0_0_2048)
      ∧ r.2.mem ((c.tc : Thread nD τ).loc main_v17) = heads (extractStridedSlice S2x4096x2048 ![0, 0, 4096]
          (shapeCast S2x4096x6144 (product (m ((c : Thread nD τ).loc main_arg0)) (m ((c : Thread nD τ).loc main_arg1)) (m ((c : Thread nD τ).loc main_arg2)) (m ((c : Thread nD τ).loc main_arg3))) shapeCasts_S8192x6144_S2x4096x6144) slices_S2x4096x6144_S2x4096x2048_0_0_4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      (((h c).2 main_v13 (Pipeline.mem_restRefs_of main_v13 (by decide) (by decide))).trans ((tail_v13 m c).trans (by rw [arr7]))),
      (((h c).2 main_v15 (Pipeline.mem_restRefs_of main_v15 (by decide) (by decide))).trans ((tail_v15 m c).trans (by rw [arr7]))),
      (((h c).2 main_v17 (Pipeline.mem_restRefs_of main_v17 (by decide) (by decide))).trans ((tail_v17 m c).trans (by rw [arr7]))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Value

end
-- ==== Proof.Bridge.lean ====
/-
  The host side of the kernel program around its one kernel call, read index by index, against the
  reference's three contractions.

  The kernel program flattens the activations a0 : [2, 4096, 2048] to X : [8192, 2048]
  (X (b * 4096 + s, j) = a0 (b, s, j)), lays the transposes of the three weight matrices
  a1, a2, a3 : [2048, 2048] side by side into W : [2048, 6144]
  (W (j, p * 2048 + o) = a_{1+p} (o, j)), multiplies, Y (r, n) = Σ_k X (r, k) * W (k, n), regroups
  the rows of Y into [2, 4096, 6144] and cuts the three column bands of width 2048 out of it.
  The reference contracts a0 with each weight matrix directly: entry (b, s, o) of the p-th product
  is Σ_k a0 (b, s, k) * a_{1+p} (o, k). Entry (b, s, o) of the p-th band is
  Y (b * 4096 + s, p * 2048 + o) = Σ_k a0 (b, s, k) * a_{1+p} (o, k): the same sum, term by term.
  At the ideal instance a change of float format is the identity, so the two roundings to bf16 on
  the way into the product do not appear.
-/
import proofs.«161941_j13932873908401_1_alg».proof.KernelIdeal
import proofs.«161941_j13932873908401_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Bridge

open Idealize.ShloMosaic Idealize.ShloMosaic.ValueIdx

/-- The flattened, reformatted activations at row r = b * 4096 + s and column k are the
    activations at (b, s, k): the reshape keeps the row-major position, and the change of format
    is the identity on extended reals. -/
theorem lhs_apply (a0 : (⟨S2x4096x2048, .f32⟩ : BufTy).Contents (Elt Ideal))
    (hsc : S2x4096x2048.ShapeCasts S8192x2048) (hb : FTy.bits .bf16 < FTy.bits .f32)
    (b : Fin 2) (s : Fin 4096) (k : Fin 2048) (r : Fin 8192) (hr : r.val = b.val * 4096 + s.val) :
    (truncf .bf16 (shapeCast S8192x2048 a0 hsc) hb : FVec Ideal S8192x2048 .bf16) (ix2 r k)
      = a0 (ix3 b s k) := by
  rw [truncf_apply]
  refine shapeCast_apply a0 hsc (ix2 r k) (ix3 b s k) ?_
  rw [Shape.rowMajor_val_two, Shape.rowMajor_val_three]
  show (b.val * 4096 + s.val) * 2048 + k.val = r.val * 2048 + k.val
  rw [hr]

/-- The weights laid side by side and reformatted, at row k and a column n = o in the first band,
    are the first weight matrix at (o, k): the column falls in the first piece of the
    concatenation, which is the transpose of a1. -/
theorem rhs_apply_0 (a1 a2 a3 : (⟨S2048x2048, .f32⟩ : BufTy).Contents (Elt Ideal))
    (hb : FTy.bits .bf16 < FTy.bits .f32) (htr : S2048x2048.Transposes [1, 0] S2048x2048)
    (hcat : Shape.Concatenates [S2048x2048, S2048x2048, S2048x2048] S2048x6144 1)
    (k o : Fin 2048) (n : Fin 6144) (hn : n.val = o.val) :
    (truncf .bf16 (concatenate S2048x6144 1 [⟨S2048x2048, transpose S2048x2048 [1, 0] a1 htr⟩,
        ⟨S2048x2048, transpose S2048x2048 [1, 0] a2 htr⟩, ⟨S2048x2048, transpose S2048x2048 [1, 0] a3 htr⟩] hcat) hb
      : FVec Ideal S2048x6144 .bf16) (ix2 k n) = a1 (ix2 o k) := by
  rw [truncf_apply]
  refine (concatenate_apply_piece (t := S2048x6144) 1
    [⟨S2048x2048, transpose S2048x2048 [1, 0] a1 htr⟩, ⟨S2048x2048, transpose S2048x2048 [1, 0] a2 htr⟩,
      ⟨S2048x2048, transpose S2048x2048 [1, 0] a3 htr⟩] hcat (ix2 k n) 0 (by show (0 : Nat) < 3; omega) S2048x2048
    (transpose S2048x2048 [1, 0] a1 htr) rfl rfl 0 rfl (ix2 k o) ?_ ?_).trans ?_
  · intro b hb1
    match b, hb1 with
    | ⟨0, _⟩, _ => rfl
    | ⟨1, _⟩, h => exact absurd rfl h
  · show 0 + o.val = n.val
    omega
  · exact transpose_apply [1, 0] a1 htr (ix2 k o) (ix2 o k) (fun b => match b with
      | ⟨0, _⟩ => rfl
      | ⟨1, _⟩ => rfl)

/-- The weights laid side by side and reformatted, at row k and a column n = 2048 + o in the second band,
    are the second weight matrix at (o, k): the column falls in the second piece of the
    concatenation, which is the transpose of a2, at the column's offset 2048 less. -/
theorem rhs_apply_1 (a1 a2 a3 : (⟨S2048x2048, .f32⟩ : BufTy).Contents (Elt Ideal))
    (hb : FTy.bits .bf16 < FTy.bits .f32) (htr : S2048x2048.Transposes [1, 0] S2048x2048)
    (hcat : Shape.Concatenates [S2048x2048, S2048x2048, S2048x2048] S2048x6144 1)
    (k o : Fin 2048) (n : Fin 6144) (hn : n.val = o.val + 2048) :
    (truncf .bf16 (concatenate S2048x6144 1 [⟨S2048x2048, transpose S2048x2048 [1, 0] a1 htr⟩,
        ⟨S2048x2048, transpose S2048x2048 [1, 0] a2 htr⟩, ⟨S2048x2048, transpose S2048x2048 [1, 0] a3 htr⟩] hcat) hb
      : FVec Ideal S2048x6144 .bf16) (ix2 k n) = a2 (ix2 o k) := by
  rw [truncf_apply]
  refine (concatenate_apply_piece (t := S2048x6144) 1
    [⟨S2048x2048, transpose S2048x2048 [1, 0] a1 htr⟩, ⟨S2048x2048, transpose S2048x2048 [1, 0] a2 htr⟩,
      ⟨S2048x2048, transpose S2048x2048 [1, 0] a3 htr⟩] hcat (ix2 k n) 1 (by show (1 : Nat) < 3; omega) S2048x2048
    (transpose S2048x2048 [1, 0] a2 htr) rfl rfl 2048 rfl (ix2 k o) ?_ ?_).trans ?_
  · intro b hb1
    match b, hb1 with
    | ⟨0, _⟩, _ => rfl
    | ⟨1, _⟩, h => exact absurd rfl h
  · show 2048 + o.val = n.val
    omega
  · exact transpose_apply [1, 0] a2 htr (ix2 k o) (ix2 o k) (fun b => match b with
      | ⟨0, _⟩ => rfl
      | ⟨1, _⟩ => rfl)

/-- The weights laid side by side and reformatted, at row k and a column n = 4096 + o in the third band,
    are the third weight matrix at (o, k): the column falls in the third piece of the
    concatenation, which is the transpose of a3, at the column's offset 4096 less. -/
theorem rhs_apply_2 (a1 a2 a3 : (⟨S2048x2048, .f32⟩ : BufTy).Contents (Elt Ideal))
    (hb : FTy.bits .bf16 < FTy.bits .f32) (htr : S2048x2048.Transposes [1, 0] S2048x2048)
    (hcat : Shape.Concatenates [S2048x2048, S2048x2048, S2048x2048] S2048x6144 1)
    (k o : Fin 2048) (n : Fin 6144) (hn : n.val = o.val + 4096) :
    (truncf .bf16 (concatenate S2048x6144 1 [⟨S2048x2048, transpose S2048x2048 [1, 0] a1 htr⟩,
        ⟨S2048x2048, transpose S2048x2048 [1, 0] a2 htr⟩, ⟨S2048x2048, transpose S2048x2048 [1, 0] a3 htr⟩] hcat) hb
      : FVec Ideal S2048x6144 .bf16) (ix2 k n) = a3 (ix2 o k) := by
  rw [truncf_apply]
  refine (concatenate_apply_piece (t := S2048x6144) 1
    [⟨S2048x2048, transpose S2048x2048 [1, 0] a1 htr⟩, ⟨S2048x2048, transpose S2048x2048 [1, 0] a2 htr⟩,
      ⟨S2048x2048, transpose S2048x2048 [1, 0] a3 htr⟩] hcat (ix2 k n) 2 (by show (2 : Nat) < 3; omega) S2048x2048
    (transpose S2048x2048 [1, 0] a3 htr) rfl rfl 4096 rfl (ix2 k o) ?_ ?_).trans ?_
  · intro b hb1
    match b, hb1 with
    | ⟨0, _⟩, _ => rfl
    | ⟨1, _⟩, h => exact absurd rfl h
  · show 4096 + o.val = n.val
    omega
  · exact transpose_apply [1, 0] a3 htr (ix2 k o) (ix2 o k) (fun b => match b with
      | ⟨0, _⟩ => rfl
      | ⟨1, _⟩ => rfl)

/-- A column band of the regrouped product: entry (b, s, o) of the band that starts at column off is
    the product at row r = b * 4096 + s and column n = o + off. The slice shifts the last coordinate
    by off, and the reshape keeps the row-major position. -/
theorem out_apply (Y : (⟨S8192x6144, .f32⟩ : BufTy).Contents (Elt Ideal))
    (hsc2 : S8192x6144.ShapeCasts S2x4096x6144) (off : Nat)
    (hsl : S2x4096x6144.Slices ![0, 0, off] S2x4096x2048)
    (b : Fin 2) (s : Fin 4096) (o : Fin 2048) (r : Fin 8192) (n : Fin 6144)
    (hr : r.val = b.val * 4096 + s.val) (hn : n.val = o.val + off) :
    extractStridedSlice S2x4096x2048 ![0, 0, off] (shapeCast S2x4096x6144 Y hsc2) hsl (ix3 b s o)
      = Y (ix2 r n) := by
  refine (extractStridedSlice_apply ![0, 0, off] (shapeCast S2x4096x6144 Y hsc2) hsl (ix3 b s o) (ix3 b s n)
    (fun a => match a with
      | ⟨0, _⟩ => by show b.val = 0 + b.val; omega
      | ⟨1, _⟩ => by show s.val = 0 + s.val; omega
      | ⟨2, _⟩ => by show n.val = off + o.val; omega)).trans ?_
  refine shapeCast_apply Y hsc2 (ix3 b s n) (ix2 r n) ?_
  rw [Shape.rowMajor_val_two, Shape.rowMajor_val_three]
  show r.val * 6144 + n.val = (b.val * 4096 + s.val) * 6144 + n.val
  rw [hr]

/-- The reference's left operand index for result entry (b, s, o) and contraction position k is (b, s, k). -/
theorem lidx_eq (b : Fin 2) (s : Fin 4096) (o k : Fin 2048) :
    Cert.ReferenceIdeal.Read.lidx_main_v0 (ix3 b s o) k = ix3 b s k := by
  funext a
  match a with
  | ⟨0, _⟩ => rfl
  | ⟨1, _⟩ => rfl
  | ⟨2, _⟩ => rfl

/-- The reference's right operand index for result entry (b, s, o) and contraction position k is (o, k). -/
theorem ridx_eq (b : Fin 2) (s : Fin 4096) (o k : Fin 2048) :
    Cert.ReferenceIdeal.Read.ridx_main_v0 (ix3 b s o) k = ix2 o k := by
  funext a
  match a with
  | ⟨0, _⟩ => rfl
  | ⟨1, _⟩ => rfl

/-- The first column band of the kernel program's regrouped product is the reference's contraction of the
    activations with the first weight matrix. Entry (b, s, o) of the band is the product Y at row
    b * 4096 + s and column o + 0, which by hypothesis is the sum over k of the flattened activations at
    (b * 4096 + s, k) times the concatenated transposed weights at (k, o + 0); the first factor is
    a0 (b, s, k) and the second, the column lying in the first piece, is a1 (o, k). The reference's entry
    (b, s, o) is the sum over k of a0 (b, s, k) * a1 (o, k): the two sums agree term by term. -/
theorem bridge_q (a0 : (⟨S2x4096x2048, .f32⟩ : BufTy).Contents (Elt Ideal))
    (a1 a2 a3 : (⟨S2048x2048, .f32⟩ : BufTy).Contents (Elt Ideal))
    (Y : (⟨S8192x6144, .f32⟩ : BufTy).Contents (Elt Ideal))
    (hsc : S2x4096x2048.ShapeCasts S8192x2048) (hb : FTy.bits .bf16 < FTy.bits .f32)
    (htr : S2048x2048.Transposes [1, 0] S2048x2048)
    (hcat : Shape.Concatenates [S2048x2048, S2048x2048, S2048x2048] S2048x6144 1)
    (hsc2 : S8192x6144.ShapeCasts S2x4096x6144) (hsl : S2x4096x6144.Slices ![0, 0, 0] S2x4096x2048)
    (hY : ∀ (r : Fin 8192) (n : Fin 6144), Y (ix2 r n) = ∑ k : Fin 2048,
        (truncf .bf16 (shapeCast S8192x2048 a0 hsc) hb : FVec Ideal S8192x2048 .bf16) (ix2 r k)
        * (truncf .bf16 (concatenate S2048x6144 1 [⟨S2048x2048, transpose S2048x2048 [1, 0] a1 htr⟩,
            ⟨S2048x2048, transpose S2048x2048 [1, 0] a2 htr⟩, ⟨S2048x2048, transpose S2048x2048 [1, 0] a3 htr⟩] hcat) hb
          : FVec Ideal S2048x6144 .bf16) (ix2 k n)) :
    extractStridedSlice S2x4096x2048 ![0, 0, 0] (shapeCast S2x4096x6144 Y hsc2) hsl
      = Host.dotGeneral (F := Ideal) (φ₁ := .f32) (φ₂ := .f32) Cert.ReferenceIdeal.dot_S2x4096x2048_S2048x2048_S2x4096x2048_2_1_01_0_n_n none a0 a1 := by
  funext i
  obtain ⟨b, s, o, rfl⟩ : ∃ (b : Fin 2) (s : Fin 4096) (o : Fin 2048), i = ix3 b s o := ⟨i 0, i 1, i 2, eq_ix3 i⟩
  refine (out_apply Y hsc2 0 hsl b s o ⟨b.val * 4096 + s.val, by omega⟩ ⟨o.val + 0, by omega⟩ rfl rfl).trans ?_
  refine (hY _ _).trans ?_
  refine Eq.trans ?_ (Cert.ReferenceIdeal.Read.val_main_v0_apply a0 a1 (ix3 b s o)).symm
  refine Finset.sum_congr rfl fun k _ => ?_
  rw [lhs_apply a0 hsc hb b s k _ rfl, rhs_apply_0 a1 a2 a3 hb htr hcat k o _ rfl, lidx_eq, ridx_eq]

/-- The second column band of the kernel program's regrouped product is the reference's contraction of the
    activations with the second weight matrix. Entry (b, s, o) of the band is the product Y at row
    b * 4096 + s and column o + 2048, which by hypothesis is the sum over k of the flattened activations at
    (b * 4096 + s, k) times the concatenated transposed weights at (k, o + 2048); the first factor is
    a0 (b, s, k) and the second, the column lying in the second piece, is a2 (o, k). The reference's entry
    (b, s, o) is the sum over k of a0 (b, s, k) * a2 (o, k): the two sums agree term by term. -/
theorem bridge_k (a0 : (⟨S2x4096x2048, .f32⟩ : BufTy).Contents (Elt Ideal))
    (a1 a2 a3 : (⟨S2048x2048, .f32⟩ : BufTy).Contents (Elt Ideal))
    (Y : (⟨S8192x6144, .f32⟩ : BufTy).Contents (Elt Ideal))
    (hsc : S2x4096x2048.ShapeCasts S8192x2048) (hb : FTy.bits .bf16 < FTy.bits .f32)
    (htr : S2048x2048.Transposes [1, 0] S2048x2048)
    (hcat : Shape.Concatenates [S2048x2048, S2048x2048, S2048x2048] S2048x6144 1)
    (hsc2 : S8192x6144.ShapeCasts S2x4096x6144) (hsl : S2x4096x6144.Slices ![0, 0, 2048] S2x4096x2048)
    (hY : ∀ (r : Fin 8192) (n : Fin 6144), Y (ix2 r n) = ∑ k : Fin 2048,
        (truncf .bf16 (shapeCast S8192x2048 a0 hsc) hb : FVec Ideal S8192x2048 .bf16) (ix2 r k)
        * (truncf .bf16 (concatenate S2048x6144 1 [⟨S2048x2048, transpose S2048x2048 [1, 0] a1 htr⟩,
            ⟨S2048x2048, transpose S2048x2048 [1, 0] a2 htr⟩, ⟨S2048x2048, transpose S2048x2048 [1, 0] a3 htr⟩] hcat) hb
          : FVec Ideal S2048x6144 .bf16) (ix2 k n)) :
    extractStridedSlice S2x4096x2048 ![0, 0, 2048] (shapeCast S2x4096x6144 Y hsc2) hsl
      = Host.dotGeneral (F := Ideal) (φ₁ := .f32) (φ₂ := .f32) Cert.ReferenceIdeal.dot_S2x4096x2048_S2048x2048_S2x4096x2048_2_1_01_0_n_n none a0 a2 := by
  funext i
  obtain ⟨b, s, o, rfl⟩ : ∃ (b : Fin 2) (s : Fin 4096) (o : Fin 2048), i = ix3 b s o := ⟨i 0, i 1, i 2, eq_ix3 i⟩
  refine (out_apply Y hsc2 2048 hsl b s o ⟨b.val * 4096 + s.val, by omega⟩ ⟨o.val + 2048, by omega⟩ rfl rfl).trans ?_
  refine (hY _ _).trans ?_
  refine Eq.trans ?_ (Cert.ReferenceIdeal.Read.val_main_v0_apply a0 a2 (ix3 b s o)).symm
  refine Finset.sum_congr rfl fun k _ => ?_
  rw [lhs_apply a0 hsc hb b s k _ rfl, rhs_apply_1 a1 a2 a3 hb htr hcat k o _ rfl, lidx_eq, ridx_eq]

/-- The third column band of the kernel program's regrouped product is the reference's contraction of the
    activations with the third weight matrix. Entry (b, s, o) of the band is the product Y at row
    b * 4096 + s and column o + 4096, which by hypothesis is the sum over k of the flattened activations at
    (b * 4096 + s, k) times the concatenated transposed weights at (k, o + 4096); the first factor is
    a0 (b, s, k) and the second, the column lying in the third piece, is a3 (o, k). The reference's entry
    (b, s, o) is the sum over k of a0 (b, s, k) * a3 (o, k): the two sums agree term by term. -/
theorem bridge_v (a0 : (⟨S2x4096x2048, .f32⟩ : BufTy).Contents (Elt Ideal))
    (a1 a2 a3 : (⟨S2048x2048, .f32⟩ : BufTy).Contents (Elt Ideal))
    (Y : (⟨S8192x6144, .f32⟩ : BufTy).Contents (Elt Ideal))
    (hsc : S2x4096x2048.ShapeCasts S8192x2048) (hb : FTy.bits .bf16 < FTy.bits .f32)
    (htr : S2048x2048.Transposes [1, 0] S2048x2048)
    (hcat : Shape.Concatenates [S2048x2048, S2048x2048, S2048x2048] S2048x6144 1)
    (hsc2 : S8192x6144.ShapeCasts S2x4096x6144) (hsl : S2x4096x6144.Slices ![0, 0, 4096] S2x4096x2048)
    (hY : ∀ (r : Fin 8192) (n : Fin 6144), Y (ix2 r n) = ∑ k : Fin 2048,
        (truncf .bf16 (shapeCast S8192x2048 a0 hsc) hb : FVec Ideal S8192x2048 .bf16) (ix2 r k)
        * (truncf .bf16 (concatenate S2048x6144 1 [⟨S2048x2048, transpose S2048x2048 [1, 0] a1 htr⟩,
            ⟨S2048x2048, transpose S2048x2048 [1, 0] a2 htr⟩, ⟨S2048x2048, transpose S2048x2048 [1, 0] a3 htr⟩] hcat) hb
          : FVec Ideal S2048x6144 .bf16) (ix2 k n)) :
    extractStridedSlice S2x4096x2048 ![0, 0, 4096] (shapeCast S2x4096x6144 Y hsc2) hsl
      = Host.dotGeneral (F := Ideal) (φ₁ := .f32) (φ₂ := .f32) Cert.ReferenceIdeal.dot_S2x4096x2048_S2048x2048_S2x4096x2048_2_1_01_0_n_n none a0 a3 := by
  funext i
  obtain ⟨b, s, o, rfl⟩ : ∃ (b : Fin 2) (s : Fin 4096) (o : Fin 2048), i = ix3 b s o := ⟨i 0, i 1, i 2, eq_ix3 i⟩
  refine (out_apply Y hsc2 4096 hsl b s o ⟨b.val * 4096 + s.val, by omega⟩ ⟨o.val + 4096, by omega⟩ rfl rfl).trans ?_
  refine (hY _ _).trans ?_
  refine Eq.trans ?_ (Cert.ReferenceIdeal.Read.val_main_v0_apply a0 a3 (ix3 b s o)).symm
  refine Finset.sum_congr rfl fun k _ => ?_
  rw [lhs_apply a0 hsc hb b s k _ rfl, rhs_apply_2 a1 a2 a3 hb htr hcat k o _ rfl, lidx_eq, ridx_eq]

end Cert.KernelIdeal.Bridge

end
-- ==== Proof.lean ====
/-
  The kernel program projects the activations onto three weight matrices with ONE matrix product: the activations
  regrouped as [8192, 2048], times the three transposed weight matrices joined along the columns, [2048, 6144], in a
  pipelined region of 16 x 3 blocks; the three column thirds of the product are the three projections, each then
  regrouped into heads. The reference contracts the activations with each weight matrix separately and regroups
  likewise. At the ideal instance entry (b, s, o) of the p-th third of the product and of the p-th contraction are
  the same sum over k of activations (b, s, k) times weights_p (o, k), term by term, so the results are equal array
  by array; no finiteness of the inputs is used.

  The three frames: the two kernel programs' by the frame of the region and of the host operations around it
  (every float instance alike); the reference's by its run. The idealization rewrote nothing.
-/
import proofs.«161941_j13932873908401_1_alg».proof.Defs
import proofs.«161941_j13932873908401_1_alg».proof.Proof.Gen.Kernel
import proofs.«161941_j13932873908401_1_alg».proof.Proof.Gen.KernelIdeal
import proofs.«161941_j13932873908401_1_alg».proof.Proof.Gen.ReferenceIdeal
import proofs.«161941_j13932873908401_1_alg».proof.Proof.Gen.Pre_finite_inputs
import proofs.«161941_j13932873908401_1_alg».proof.Proof.Gen.ReferenceIdeal.Run
import proofs.«161941_j13932873908401_1_alg».proof.Proof.FrameK
import proofs.«161941_j13932873908401_1_alg».proof.Proof.FrameKI
import proofs.«161941_j13932873908401_1_alg».proof.Proof.ValueKI
import proofs.«161941_j13932873908401_1_alg».proof.Proof.Bridge

noncomputable section

namespace Cert.Proof

open Idealize.ShloMosaic Idealize.ShloMosaic.TcCoe Idealize.SL.Sem Idealize.ShloMosaic.ValueIdx

/-! ## The reference's results are the kernel program's -/

/-- Entry (r, n) of the product is the sum over k of the left operand's (r, k) times the right operand's (k, n). -/
theorem product_apply (a0 : FVec Ideal Cert.KernelIdeal.S2x4096x2048 .f32) (a1 a2 a3 : FVec Ideal Cert.KernelIdeal.S2048x2048 .f32)
    (r : Fin 8192) (n : Fin 6144) :
    Cert.KernelIdeal.Value.product a0 a1 a2 a3 (ix2 r n)
      = ∑ k : Fin 2048, Cert.KernelIdeal.Value.lhsOp a0 (ix2 r k) * Cert.KernelIdeal.Value.rhsOp a1 a2 a3 (ix2 k n) := rfl

/-- The reference's first result — the contraction with the first weight matrix, regrouped into heads — is the first
    column third of the product, regrouped into heads. -/
theorem result_q (a0 : FVec Ideal Cert.KernelIdeal.S2x4096x2048 .f32) (a1 a2 a3 : FVec Ideal Cert.KernelIdeal.S2048x2048 .f32) :
    transpose Cert.ReferenceIdeal.S2x16x4096x128 [0, 2, 1, 3] (shapeCast _ (Host.dotGeneral (F := Ideal) Cert.ReferenceIdeal.dot_S2x4096x2048_S2048x2048_S2x4096x2048_2_1_01_0_n_n none a0 a1) Cert.ReferenceIdeal.Gen.shapeCasts_S2x4096x2048_S2x4096x16x128) Cert.ReferenceIdeal.Gen.transposes_S2x4096x16x128_S2x16x4096x128_0_2_1_3
      = Cert.KernelIdeal.Value.heads (extractStridedSlice Cert.KernelIdeal.S2x4096x2048 ![0, 0, 0]
          (shapeCast Cert.KernelIdeal.S2x4096x6144 (Cert.KernelIdeal.Value.product a0 a1 a2 a3) Cert.KernelIdeal.Gen.shapeCasts_S8192x6144_S2x4096x6144) Cert.KernelIdeal.Gen.slices_S2x4096x6144_S2x4096x2048_0_0_0) := by
  rw [Cert.KernelIdeal.Bridge.bridge_q a0 a1 a2 a3 (Cert.KernelIdeal.Value.product a0 a1 a2 a3) _ _ _ _ _ _ (product_apply a0 a1 a2 a3)]
  rfl

/-- The second result likewise: the second weight matrix, the second column third. -/
theorem result_k (a0 : FVec Ideal Cert.KernelIdeal.S2x4096x2048 .f32) (a1 a2 a3 : FVec Ideal Cert.KernelIdeal.S2048x2048 .f32) :
    transpose Cert.ReferenceIdeal.S2x16x4096x128 [0, 2, 1, 3] (shapeCast _ (Host.dotGeneral (F := Ideal) Cert.ReferenceIdeal.dot_S2x4096x2048_S2048x2048_S2x4096x2048_2_1_01_0_n_n none a0 a2) Cert.ReferenceIdeal.Gen.shapeCasts_S2x4096x2048_S2x4096x16x128) Cert.ReferenceIdeal.Gen.transposes_S2x4096x16x128_S2x16x4096x128_0_2_1_3
      = Cert.KernelIdeal.Value.heads (extractStridedSlice Cert.KernelIdeal.S2x4096x2048 ![0, 0, 2048]
          (shapeCast Cert.KernelIdeal.S2x4096x6144 (Cert.KernelIdeal.Value.product a0 a1 a2 a3) Cert.KernelIdeal.Gen.shapeCasts_S8192x6144_S2x4096x6144) Cert.KernelIdeal.Gen.slices_S2x4096x6144_S2x4096x2048_0_0_2048) := by
  rw [Cert.KernelIdeal.Bridge.bridge_k a0 a1 a2 a3 (Cert.KernelIdeal.Value.product a0 a1 a2 a3) _ _ _ _ _ _ (product_apply a0 a1 a2 a3)]
  rfl

/-- The third result likewise: the third weight matrix, the third column third. -/
theorem result_v (a0 : FVec Ideal Cert.KernelIdeal.S2x4096x2048 .f32) (a1 a2 a3 : FVec Ideal Cert.KernelIdeal.S2048x2048 .f32) :
    transpose Cert.ReferenceIdeal.S2x16x4096x128 [0, 2, 1, 3] (shapeCast _ (Host.dotGeneral (F := Ideal) Cert.ReferenceIdeal.dot_S2x4096x2048_S2048x2048_S2x4096x2048_2_1_01_0_n_n none a0 a3) Cert.ReferenceIdeal.Gen.shapeCasts_S2x4096x2048_S2x4096x16x128) Cert.ReferenceIdeal.Gen.transposes_S2x4096x16x128_S2x16x4096x128_0_2_1_3
      = Cert.KernelIdeal.Value.heads (extractStridedSlice Cert.KernelIdeal.S2x4096x2048 ![0, 0, 4096]
          (shapeCast Cert.KernelIdeal.S2x4096x6144 (Cert.KernelIdeal.Value.product a0 a1 a2 a3) Cert.KernelIdeal.Gen.shapeCasts_S8192x6144_S2x4096x6144) Cert.KernelIdeal.Gen.slices_S2x4096x6144_S2x4096x2048_0_0_4096) := by
  rw [Cert.KernelIdeal.Bridge.bridge_v a0 a1 a2 a3 (Cert.KernelIdeal.Value.product a0 a1 a2 a3) _ _ _ _ _ _ (product_apply a0 a1 a2 a3)]
  rfl

/-! ## The claims -/

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the four arguments both programs run, and end with equal results: the kernel
    program's three results are the three column thirds of the product regrouped into heads, the reference's the three
    contractions regrouped into heads, of the same arguments. -/
theorem algebraic : Cert.algebraic_KernelIdeal_ReferenceIdeal := by
  intro m ρ m' ρ' _ hagree
  refine ⟨_, _, _, Cert.KernelIdeal.Value.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [(hagree c).1, (hagree c).2.1]
    exact result_q _ _ _ _
  · rw [(hagree c).1, (hagree c).2.2.1]
    exact result_k _ _ _ _
  · rw [(hagree c).1, (hagree c).2.2.2]
    exact result_v _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
